-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S256 .f32) (main_arg8 : FVec F S256x128 .f32) (main_arg9 : FVec F S128 .f32) (main_arg10 : FVec F S128x1 .f32) (main_arg11 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg8
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S800000 32) (main_arg2 : IVec S800000 32) (main_arg3 : IVec S50000 32) (main_arg4 : FVec F S128x256 .f32) (main_arg5 : FVec F S256 .f32) (main_arg6 : FVec F S256x256 .f32) (main_arg7 : FVec F S256 .f32) (main_arg8 : FVec F S256x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S800000x256 : Shape := ⟨2, ![800000, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 81
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x256, .f32⟩
  | .hbm, ⟨47, _⟩ => ⟨S_, .f32⟩
  | .hbm, ⟨48, _⟩ => ⟨S50000x256, .f32⟩
  | .hbm, ⟨49, _⟩ => ⟨S800000x1, .i32⟩
  | .hbm, ⟨50, _⟩ => ⟨S50000x256, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S256x256, .f32⟩
  | .hbm, ⟨66, _⟩ => ⟨S50000x1, .i32⟩
  | .hbm, ⟨67, _⟩ => ⟨S256x256, .f32⟩
  | .hbm, ⟨68, _⟩ => ⟨S_, .f32⟩
  | .hbm, ⟨69, _⟩ => ⟨S50000, .f32⟩
  | .hbm, ⟨70, _⟩ => ⟨S_, .f32⟩
  | .hbm, ⟨71, _⟩ => ⟨S256, .f32⟩
  | .hbm, ⟨72, _⟩ => ⟨S50000x1, .i32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256x1, .f32⟩
  | .hbm, ⟨78, _⟩ => ⟨S256x256, .f32⟩
  | .hbm, ⟨79, _⟩ => ⟨S256x256, .f32⟩
  | .hbm, ⟨80, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S256x128, .f32⟩
  | .local _ .vmem, ⟨14, _⟩ => ⟨S128, .f32⟩
  | .local _ .vmem, ⟨15, _⟩ => ⟨S128x1, .f32⟩
  | .local _ .vmem, ⟨16, _⟩ => ⟨S1, .f32⟩
  | .local _ .vmem, ⟨17, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S256x256 : S_.BroadcastsInDim S256x256 (![] : Fin 0 → Fin S256x256.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  shapeCasts_S256x256_S256x256 : S256x256.ShapeCasts S256x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S256x256.size a
  hwx2_0 : ∀ i : grid2.Coords, EltTy.bits .f32 = 32 ∨ (Rect.block (s := S256x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S256x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S256x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S256x256, .f32⟩
  | .hbm, ⟨78, _⟩ => ⟨S50000x1, .i32⟩
  | .hbm, ⟨79, _⟩ => ⟨S256x256, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S256, .f32⟩
  | .hbm, ⟨84, _⟩ => ⟨S50000x1, .i32⟩
  | .hbm, ⟨85, _⟩ => ⟨S256, .f32⟩
  | .hbm, ⟨86, _⟩ => ⟨S_, .f32⟩
  | .hbm, ⟨87, _⟩ => ⟨S256, .f32⟩
  | .hbm, ⟨88, _⟩ => ⟨S256, .f32⟩
  | .hbm, ⟨89, _⟩ => ⟨S256x1, .f32⟩
  | .hbm, ⟨90, _⟩ => ⟨S256x256, .f32⟩
  | .hbm, ⟨91, _⟩ => ⟨S256x256, .f32⟩
  | .hbm, ⟨92, _⟩ => ⟨S256x128, .f32⟩
  | .hbm, ⟨93, _⟩ => ⟨S1x128, .f32⟩
  | .hbm, ⟨94, _⟩ => ⟨S256x128, .f32⟩
  | .hbm, ⟨95, _⟩ => ⟨S256x128, .f32⟩
  | .hbm, ⟨96, _⟩ => ⟨S256x1, .f32⟩
  | .hbm, ⟨97, _⟩ => ⟨S1x1, .f32⟩
  | .hbm, ⟨98, _⟩ => ⟨S256x1, .f32⟩
  | .hbm, ⟨99, _⟩ => ⟨S256x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S256x256 : S_.BroadcastsInDim S256x256 (![] : Fin 0 → Fin S256x256.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KRun.lean ====
/-
  The kernel program's run with its result named.

  The program is three kernel regions among stretches of host operations. Its buffers' contents at the boundaries
  between those segments form a chain W0 (launch), W1, …, W6 (return): a stretch of host operations maps the contents
  through its operations, a region replaces its arrays by what its write-backs leave. Every weakly fair execution
  terminates with every unscoped buffer at W6; the frame keeps of this only the argument arrays, and here the result
  buffer is kept too, at W6's contents for it.
-/
import proofs.«110687_j5007931867571_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Whole

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.Affine.lean ====
/-
  An affine map x ↦ x·W + b on the extended reals, read at a row and a column.

  Whether the product is a kernel's matrix product into a zero accumulator or the host's contraction, and whether
  the bias row is stretched over the rows by a cast and a broadcast or by two host broadcasts, the entry at (p, c)
  is the sum over a of x(p, a) · W(a, c), plus b(c).
-/
import Idealize.ShloMosaic.PureOps.Ideal.Laws
import Idealize.ShloMosaic.Lib.ValueIdx
import Idealize.ShloMosaic.Lib.ValueLayout
import Idealize.ShloMosaic.Lib.Pipeline.Value
import proofs.«110687_j5007931867571_1_alg».proof.Proof.LibMatmulRows
import proofs.«110687_j5007931867571_1_alg».proof.Proof.LibDotRows

noncomputable section

namespace Cert.Gcn

open Idealize.ShloMosaic Idealize.ShloMosaic.ValueIdx

/-- A row [N] stretched to [M, N] by the host (first to [1, N], then over the rows) reads at (p, c) its entry c. -/
theorem hostRow_apply {α : Type} {M N : Nat}
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A row [N] stretched to [M, N] inside a kernel (cast to [1, N], broadcast over the rows) reads at (p, c) its entry c. -/
theorem kernelRow_apply {α : Type} {M N : Nat}
    (h1 : (⟨1, ![N]⟩ : Shape).ShapeCasts ⟨2, ![1, N]⟩) (h2 : (⟨2, ![1, N]⟩ : Shape).Broadcasts ⟨2, ![M, N]⟩)
    (b : (⟨1, ![N]⟩ : Shape).Idx → α) (p : Fin M) (c : Fin N) :
    broadcastTo ⟨2, ![M, N]⟩ (shapeCast ⟨2, ![1, N]⟩ b h1) h2 (ix2 p c) = b (ix1 c) :=
  (broadcastTo_1b_ab_apply _ h2 p c).trans (shapeCast_a_1a_apply b h1 0 c)

/-- The host's affine map at (p, c). -/
theorem hostAffine_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (l : FVec Ideal ⟨2, ![M, K]⟩ φ₁) (r : FVec Ideal ⟨2, ![K, N]⟩ φ₂) (b : FVec Ideal ⟨1, ![N]⟩ .f32) (p : Fin M) (c : Fin N) :
    addf (Host.dotGeneral d none l r) (broadcastInDim ⟨2, ![M, N]⟩ ![0, 1] h2 (broadcastInDim ⟨2, ![1, N]⟩ ![1] h1 b)) (ix2 p c)
      = (∑ a : Fin K, l (ix2 p a) * r (ix2 a c)) + b (ix1 c) := by
  rw [addf_apply, LibDotRows.dotGeneral_ix2 d hr hs hl0 hl1 hr0 hr1, hostRow_apply]

/-- A kernel's affine map (the product accumulated from zero) at (p, c). -/
theorem kernelAffine_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (h1 : (⟨1, ![N]⟩ : Shape).ShapeCasts ⟨2, ![1, N]⟩) (h2 : (⟨2, ![1, N]⟩ : Shape).Broadcasts ⟨2, ![M, N]⟩)
    (l : FVec Ideal ⟨2, ![M, K]⟩ φ₁) (r : FVec Ideal ⟨2, ![K, N]⟩ φ₂) (b : FVec Ideal ⟨1, ![N]⟩ .f32) (p : Fin M) (c : Fin N) :
    addf (matmul d none l r (constant ⟨2, ![M, N]⟩ .f32 0x00000000#32)) (broadcastTo ⟨2, ![M, N]⟩ (shapeCast ⟨2, ![1, N]⟩ b h1) h2) (ix2 p c)
      = (∑ a : Fin K, l (ix2 p a) * r (ix2 a c)) + b (ix1 c) := by
  rw [addf_apply, LibMatmulRows.matmul_zero_ix2 d hr hs hl0 hl1 hr0 hr1, kernelRow_apply]

end Cert.Gcn

end
-- ==== Proof.DotFacts.lean ====
/-
  Which operand entries the kernels' four matrix products read.

  Each product contracts the left operand's axis 1 against the right operand's axis 0 and has no batch axis: at the
  result index i and the contraction index q, the left operand is read at (i 0, q) and the right at (q, i 1).
-/
import proofs.«110687_j5007931867571_1_alg».proof.Proof.Gen.KernelIdeal
import Idealize.ShloMosaic.PureOps.Ideal.Laws

noncomputable section

namespace Cert.KernelIdeal.Whole

open Idealize.ShloMosaic Cert.KernelIdeal Cert.KernelIdeal.Gen

/-! ### the first layer's tile product, [5000, 128] by [128, 256] -/

theorem d0_l0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem d0_l1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem d0_r0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem d0_r1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-! ### the second layer's tile product, [5000, 256] by [256, 256] -/

theorem d1_l0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem d1_l1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem d1_r0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem d1_r1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-! ### the readout's first product, [256, 256] by [256, 128] -/

theorem d2_l0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem d2_l1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
theorem d2_r0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
theorem d2_r1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-! ### the readout's second product, [256, 128] by [128, 1] -/

theorem d3_l0 (i : S256x1.Idx) (q : dot_S256x128_S128x1_S256x1_1_0_0_1_n_n.contr.Idx) :
    (dot_S256x128_S128x1_S256x1_1_0_0_1_n_n.lhsIdx i q 0).val = (i 0).val := by
  unfold DotDims.lhsIdx
  rw [dif_neg (show ¬(0 : Fin S256x128.rank) ∈ dot_S256x128_S128x1_S256x1_1_0_0_1_n_n.lhsBatch by decide), dif_pos (show (0 : Fin S256x128.rank) ∈ dot_S256x128_S128x1_S256x1_1_0_0_1_n_n.lhsNonContracting by decide)]
  rfl
theorem d3_l1 (i : S256x1.Idx) (q : dot_S256x128_S128x1_S256x1_1_0_0_1_n_n.contr.Idx) :
    (dot_S256x128_S128x1_S256x1_1_0_0_1_n_n.lhsIdx i q 1).val = (q ⟨0, by decide⟩).val :=
  dot_S256x128_S128x1_S256x1_1_0_0_1_n_n.lhsIdx_val_of_single rfl i q
theorem d3_r0 (i : S256x1.Idx) (q : dot_S256x128_S128x1_S256x1_1_0_0_1_n_n.contr.Idx) :
    (dot_S256x128_S128x1_S256x1_1_0_0_1_n_n.rhsIdx i q 0).val = (q ⟨0, by decide⟩).val :=
  dot_S256x128_S128x1_S256x1_1_0_0_1_n_n.rhsIdx_val_of_single rfl i q
theorem d3_r1 (i : S256x1.Idx) (q : dot_S256x128_S128x1_S256x1_1_0_0_1_n_n.contr.Idx) :
    (dot_S256x128_S128x1_S256x1_1_0_0_1_n_n.rhsIdx i q 1).val = (i 1).val := by
  unfold DotDims.rhsIdx
  rw [dif_neg (show ¬(1 : Fin S128x1.rank) ∈ dot_S256x128_S128x1_S256x1_1_0_0_1_n_n.rhsBatch by decide), dif_pos (show (1 : Fin S128x1.rank) ∈ dot_S256x128_S128x1_S256x1_1_0_0_1_n_n.rhsNonContracting by decide)]
  rfl

end Cert.KernelIdeal.Whole

end
-- ==== Proof.TileAt.lean ====
/-
  What the three kernel bodies store, read at a row and a column.

  A dense body stores max(x·W + b, 0) of its row tile x (both operands rounded to bf16 on the way into the product,
  which changes nothing on the extended reals); the readout body stores (g·Wr1 + br1)·Wr2 + br2.
-/
import proofs.«110687_j5007931867571_1_alg».proof.Proof.Gen.KernelIdeal.Skeleton
import proofs.«110687_j5007931867571_1_alg».proof.Proof.Affine
import proofs.«110687_j5007931867571_1_alg».proof.Proof.DotFacts

noncomputable section

namespace Cert.KernelIdeal.Whole

open Idealize.ShloMosaic Idealize.ShloMosaic.ValueIdx Cert.KernelIdeal Cert.KernelIdeal.Gen Cert.Gcn

theorem pay0_apply (x0 : FVec Ideal S5000x128 .f32) (x1 : FVec Ideal S128x256 .f32) (x2 : FVec Ideal S256 .f32)
    (q : Fin 5000) (c : Fin 256) :
    k0_pay1 (F := Ideal) x0 x1 x2 (ix2 q c)
      = max ((∑ a : Fin 128, x0 (ix2 q a) * x1 (ix2 a c)) + x2 (ix1 c)) (FloatOps.ofBits (F := Ideal) .f32 0x00000000#32) := by
  unfold k0_pay1
  refine (maximumf_apply _ _ _).trans ?_
  rw [kernelAffine_apply dot_S5000x128_S128x256_S5000x256_1_0_0_1_n_n rfl rfl d0_l0 d0_l1 d0_r0 d0_r1]
  simp only [shapeCast_self]
  rfl

theorem pay1_apply (x0 : FVec Ideal S5000x256 .f32) (x1 : FVec Ideal S256x256 .f32) (x2 : FVec Ideal S256 .f32)
    (q : Fin 5000) (c : Fin 256) :
    k1_pay1 (F := Ideal) x0 x1 x2 (ix2 q c)
      = max ((∑ a : Fin 256, x0 (ix2 q a) * x1 (ix2 a c)) + x2 (ix1 c)) (FloatOps.ofBits (F := Ideal) .f32 0x00000000#32) := by
  unfold k1_pay1
  refine (maximumf_apply _ _ _).trans ?_
  rw [kernelAffine_apply dot_S5000x256_S256x256_S5000x256_1_0_0_1_n_n rfl rfl d1_l0 d1_l1 d1_r0 d1_r1]
  simp only [shapeCast_self]
  rfl

theorem pay2_apply (x0 : FVec Ideal S256x256 .f32) (x1 : FVec Ideal S256x128 .f32) (x2 : FVec Ideal S128 .f32)
    (x3 : FVec Ideal S128x1 .f32) (x4 : FVec Ideal S1 .f32) (p : Fin 256) (c : Fin 1) :
    k2_pay1 (F := Ideal) x0 x1 x2 x3 x4 (ix2 p c)
      = (∑ a : Fin 128, ((∑ k : Fin 256, x0 (ix2 p k) * x1 (ix2 k a)) + x2 (ix1 a)) * x3 (ix2 a c)) + x4 (ix1 c) := by
  unfold k2_pay1
  rw [kernelAffine_apply dot_S256x128_S128x1_S256x1_1_0_0_1_n_n rfl rfl d3_l0 d3_l1 d3_r0 d3_r1]
  refine congrArg (· + x4 (ix1 c)) (Finset.sum_congr rfl fun a _ => ?_)
  rw [kernelAffine_apply dot_S256x256_S256x128_S256x128_1_0_0_1_n_n rfl rfl d2_l0 d2_l1 d2_r0 d2_r1]
  simp only [shapeCast_self]

end Cert.KernelIdeal.Whole

end
-- ==== Proof.Spec.lean ====
/-
  The network both programs compute, as one function of its twelve argument arrays.

  A graph of 50000 nodes and 800000 edges (src → dst), node features h [50000, 128], and a partition of the
  nodes into 256 graphs (graph_ids). One layer is: every node takes the MEAN of the features of the sources of its
  incoming edges (the sum scattered by dst, divided by max(in-degree, 1)), then an affine map and a clamp at zero,
  max(x·W + b, 0). Two layers (128 → 256 → 256), then every graph takes the mean of its nodes' features
  (the sum scattered by graph id, divided by max(node count, 1)), then two affine maps (256 → 128 → 1).

  The functions below spell this with the host's operations on whole arrays; `net` is their composition.
-/
import proofs.«110687_j5007931867571_1_alg».proof.Proof.Gen.ReferenceIdeal

noncomputable section

namespace Cert.Gcn

open Idealize.ShloMosaic Cert.ReferenceIdeal Cert.ReferenceIdeal.Gen

variable {F : FTy → Type} [FloatOps F]

/-- Float arrays of shape `S`. -/
abbrev T (F : FTy → Type) (S : Shape) : Type := (⟨S, .f32⟩ : BufTy).Contents (Elt F)
/-- 32-bit integer arrays of shape `S`. -/
abbrev TI (F : FTy → Type) (S : Shape) : Type := (⟨S, .i32⟩ : BufTy).Contents (Elt F)

/-- An edge's source index, a negative one counted from the end (index + 50000). -/
def wrap (src : TI F S800000) : TI F S800000 :=
  select (cmpi .slt src (broadcastInDim S800000 ![] bcast_S_S800000 (constantI S_ 32 0#32)))
    (addi src (broadcastInDim S800000 ![] bcast_S_S800000 (constantI S_ 32 50000#32))) src

/-- max(in-degree, 1) of every node: ones scattered by destination, clamped below at one. -/
def degree (dst : TI F S800000) : T F S50000 :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- Mean over incoming edges of the sources' features, 128 features wide. -/
def agg128 (h : T F S50000x128) (src dst : TI F S800000) : T F S50000x128 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0 (wrap src))))
    (broadcastInDim S50000x128 ![0, 1] bcast_S50000x1_S50000x128_0_1
      (broadcastInDim S50000x1 ![0] bcast_S50000_S50000x1_0 (degree dst)))

/-- Mean over incoming edges of the sources' features, 256 features wide. -/
def agg256 (h : T F S50000x256) (src dst : TI F S800000) : T F S50000x256 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0 (wrap src))))
    (broadcastInDim S50000x256 ![0, 1] bcast_S50000x1_S50000x256_0_1
      (broadcastInDim S50000x1 ![0] bcast_S50000_S50000x1_0 (degree dst)))

/-- First layer's dense part: max(x·W + b, 0), 128 → 256. -/
def lin1 (x : T F S50000x128) (W : T F S128x256) (b : T F S256) : T F S50000x256 :=
  maximumf
    (addf (Host.dotGeneral dot_S50000x128_S128x256_S50000x256_1_0_0_1_n_n none x W)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- Second layer's dense part: max(x·W + b, 0), 256 → 256. -/
def lin2 (x : T F S50000x256) (W : T F S256x256) (b : T F S256) : T F S50000x256 :=
  maximumf
    (addf (Host.dotGeneral dot_S50000x256_S256x256_S50000x256_1_0_0_1_n_n none x W)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- Every graph's mean of its nodes' features: the sum scattered by graph id over max(node count, 1). -/
def pool (y : T F S50000x256) (gid : TI F S50000) : T F S256x256 :=
  Host.divf
    (Host.scatterAdd scatter_S256x256_S50000x1_S50000x256_1_0_0_1
      (broadcastInDim S256x256 ![] bcast_S_S256x256 (constant S_ .f32 0x00000000#32))
      (broadcastInDim S50000x1 ![0] bcast_S50000_S50000x1_0 gid) y)
    (broadcastInDim S256x256 ![0, 1] bcast_S256x1_S256x256_0_1
      (broadcastInDim S256x1 ![0] bcast_S256_S256x1_0
        (maximumf
          (Host.scatterAdd scatter_S256_S50000x1_S50000_n_0_0_1
            (broadcastInDim S256 ![] bcast_S_S256 (constant S_ .f32 0x00000000#32))
            (broadcastInDim S50000x1 ![0] bcast_S50000_S50000x1_0 gid)
            (broadcastInDim S50000 ![] bcast_S_S50000 (constant S_ .f32 0x3F800000#32)))
          (broadcastInDim S256 ![] bcast_S_S256 (constant S_ .f32 0x3F800000#32)))))

/-- The two closing affine maps: (g·Wr1 + br1)·Wr2 + br2. -/
def readout (g : T F S256x256) (Wr1 : T F S256x128) (br1 : T F S128) (Wr2 : T F S128x1) (br2 : T F S1) : T F S256x1 :=
  addf
    (Host.dotGeneral dot_S256x128_S128x1_S256x1_1_0_0_1_n_n none
      (addf (Host.dotGeneral dot_S256x256_S256x128_S256x128_1_0_0_1_n_n none g Wr1)
        (broadcastInDim S256x128 ![0, 1] bcast_S1x128_S256x128_0_1 (broadcastInDim S1x128 ![1] bcast_S128_S1x128_1 br1)))
      Wr2)
    (broadcastInDim S256x1 ![0, 1] bcast_S1x1_S256x1_0_1 (broadcastInDim S1x1 ![1] bcast_S1_S1x1_1 br2))

/-- The whole network. -/
def net (h : T F S50000x128) (src dst : TI F S800000) (gid : TI F S50000) (W1 : T F S128x256) (b1 : T F S256)
    (W2 : T F S256x256) (b2 : T F S256) (Wr1 : T F S256x128) (br1 : T F S128) (Wr2 : T F S128x1) (br2 : T F S1) : T F S256x1 :=
  readout (pool (lin2 (agg256 (lin1 (agg128 h src dst) W1 b1) src dst) W2 b2) gid) Wr1 br1 Wr2 br2

end Cert.Gcn

end
-- ==== Proof.LayerAt.lean ====
/-
  The network's dense stages read at a row and a column.

  Each stage is an affine map, the two layers' clamped at zero: on the extended reals its entry at (p, c) is
  max(Σ_a x(p, a)·W(a, c) + b(c), 0), and the readout's is Σ_a (Σ_k g(p, k)·Wr1(k, a) + br1(a))·Wr2(a, c) + br2(c).
-/
import proofs.«110687_j5007931867571_1_alg».proof.Proof.Spec
import proofs.«110687_j5007931867571_1_alg».proof.Proof.Affine
import proofs.«110687_j5007931867571_1_alg».proof.Proof.Gen.ReferenceIdeal.Read

noncomputable section

namespace Cert.Gcn

open Idealize.ShloMosaic Idealize.ShloMosaic.ValueIdx Cert.ReferenceIdeal Cert.ReferenceIdeal.Gen Cert.ReferenceIdeal.Read

/-- The zero both programs clamp at: the denotation of the all-zero 32-bit pattern. -/
abbrev zero32 : Ideal .f32 := FloatOps.ofBits (F := Ideal) .f32 0x00000000#32

theorem lin1_apply (x : FVec Ideal S50000x128 .f32) (W : FVec Ideal S128x256 .f32) (b : FVec Ideal S256 .f32)
    (p : Fin 50000) (c : Fin 256) :
    lin1 (F := Ideal) x W b (ix2 p c) = max ((∑ a : Fin 128, x (ix2 p a) * W (ix2 a c)) + b (ix1 c)) zero32 := by
  unfold lin1
  refine (maximumf_apply _ _ _).trans ?_
  rw [hostAffine_apply dot_S50000x128_S128x256_S50000x256_1_0_0_1_n_n rfl rfl lhs_main_v19_0 lhs_main_v19_1 rhs_main_v19_0 rhs_main_v19_1]
  rfl

theorem lin2_apply (x : FVec Ideal S50000x256 .f32) (W : FVec Ideal S256x256 .f32) (b : FVec Ideal S256 .f32)
    (p : Fin 50000) (c : Fin 256) :
    lin2 (F := Ideal) x W b (ix2 p c) = max ((∑ a : Fin 256, x (ix2 p a) * W (ix2 a c)) + b (ix1 c)) zero32 := by
  unfold lin2
  refine (maximumf_apply _ _ _).trans ?_
  rw [hostAffine_apply dot_S50000x256_S256x256_S50000x256_1_0_0_1_n_n rfl rfl lhs_main_v43_0 lhs_main_v43_1 rhs_main_v43_0 rhs_main_v43_1]
  rfl

theorem readout_apply (g : FVec Ideal S256x256 .f32) (Wr1 : FVec Ideal S256x128 .f32) (br1 : FVec Ideal S128 .f32)
    (Wr2 : FVec Ideal S128x1 .f32) (br2 : FVec Ideal S1 .f32) (p : Fin 256) (c : Fin 1) :
    readout (F := Ideal) g Wr1 br1 Wr2 br2 (ix2 p c)
      = (∑ a : Fin 128, ((∑ k : Fin 256, g (ix2 p k) * Wr1 (ix2 k a)) + br1 (ix1 a)) * Wr2 (ix2 a c)) + br2 (ix1 c) := by
  unfold readout
  rw [hostAffine_apply dot_S256x128_S128x1_S256x1_1_0_0_1_n_n rfl rfl lhs_main_v64_0 lhs_main_v64_1 rhs_main_v64_0 rhs_main_v64_1]
  refine congrArg (· + br2 (ix1 c)) (Finset.sum_congr rfl fun a _ => ?_)
  rw [hostAffine_apply dot_S256x256_S256x128_S256x128_1_0_0_1_n_n rfl rfl lhs_main_v60_0 lhs_main_v60_1 rhs_main_v60_0 rhs_main_v60_1]

end Cert.Gcn

end
-- ==== Proof.Final0.lean ====
/-
  Region 0 (the first dense layer), from its row tiles to its whole result array.

  The grid has ten points; point t works on rows 5000·t … 5000·t + 4999: its input tile is those rows of x, the weight
  matrix and the bias are whole, and it writes back those rows of the result. Entry (q, c) of what point t stores is
  max(Σ_a x(5000·t + q, a)·W(a, c) + b(c), 0), which is entry (5000·t + q, c) of the layer applied to the whole of x.
  The ten row blocks tile the 50000 rows, so the result array ends holding the layer of the whole arrays.
-/
import proofs.«110687_j5007931867571_1_alg».proof.Proof.Gen.KernelIdeal.Frame
import proofs.«110687_j5007931867571_1_alg».proof.Proof.TileAt
import proofs.«110687_j5007931867571_1_alg».proof.Proof.LayerAt
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a <;> rfl

/-- The printed index maps over the grid: the tile and the result block move with the point along the rows; the weight
    matrix and the bias stay at block 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row q of point t's input tile is row 5000·t + q of the array. -/
theorem tile0_x (c : Dev nD) (t : Fin cfg0.N) (q : Fin 5000) (a : Fin 128) (p : Fin 50000) (hp : p.val = t.val * 5000 + q.val) :
    (iblk0 V c 0 t : S5000x128.Idx → Ideal .f32) (ix2 q a) = (V c main_v18 : (⟨2, ![50000, 128]⟩ : Shape).Idx → Ideal .f32) (ix2 p a) := by
  obtain ⟨e0, e1, -⟩ := index0 t
  unfold iblk0
  rw [View.read_apply]
  show V c main_v18 _ = V c main_v18 _
  refine congrArg _ (funext fun ax => Fin.ext ?_)
  match ax with
  | ⟨0, _⟩ => show win0_0.index t (0 : Fin 2) * 5000 + 1 * q.val = p.val; rw [e0, hp]; omega
  | ⟨1, _⟩ => show win0_0.index t (1 : Fin 2) * 128 + 1 * a.val = a.val; rw [e1]; omega

/-- The weight window's block is the whole weight matrix. -/
theorem tile0_w (c : Dev nD) (t : Fin cfg0.N) (a : Fin 128) (c' : Fin 256) :
    (iblk0 V c 1 t : S128x256.Idx → Ideal .f32) (ix2 a c') = (V c main_arg4 : S128x256.Idx → Ideal .f32) (ix2 a c') := by
  obtain ⟨-, -, e0, e1, -⟩ := index0 t
  unfold iblk0
  rw [View.read_apply]
  show V c main_arg4 _ = V c main_arg4 _
  refine congrArg _ (funext fun ax => Fin.ext ?_)
  match ax with
  | ⟨0, _⟩ => show win0_1.index t (0 : Fin 2) * 128 + 1 * a.val = a.val; rw [e0]; omega
  | ⟨1, _⟩ => show win0_1.index t (1 : Fin 2) * 256 + 1 * c'.val = c'.val; rw [e1]; omega

/-- The bias window's block is the whole bias. -/
theorem tile0_b (c : Dev nD) (t : Fin cfg0.N) (c' : Fin 256) :
    (iblk0 V c 2 t : S256.Idx → Ideal .f32) (ix1 c') = (V c main_arg5 : S256.Idx → Ideal .f32) (ix1 c') := by
  obtain ⟨-, -, -, -, e0, -⟩ := index0 t
  unfold iblk0
  rw [View.read_apply]
  show V c main_arg5 _ = V c main_arg5 _
  refine congrArg _ (funext fun ax => Fin.ext ?_)
  match ax with
  | ⟨0, _⟩ => show win0_2.index t (0 : Fin 1) * 256 + 1 * c'.val = c'.val; rw [e0]; omega

/-- Entry (q, c') of point t's result block sits at (5000·t + q, c') of the result array. -/
theorem out0_emb (t : Fin cfg0.N) (q : Fin 5000) (c' : Fin 256) (p : Fin 50000) (hp : p.val = t.val * 5000 + q.val) :
    ((cfg0.win 3).blk t).view.emb (ix2 q c') = (ix2 p c' : (⟨2, ![50000, 256]⟩ : Shape).Idx) := by
  obtain ⟨-, -, -, -, -, e0, e1⟩ := index0 t
  refine funext fun ax => Fin.ext ?_
  match ax with
  | ⟨0, _⟩ => show win0_3.index t (0 : Fin 2) * 5000 + 1 * q.val = p.val; rw [e0, hp]; omega
  | ⟨1, _⟩ => show win0_3.index t (1 : Fin 2) * 256 + 1 * c'.val = c'.val; rw [e1]; omega

/-- What point t writes back is block t of the layer applied to the whole arrays as the region finds them. -/
theorem flushed0 (c : Dev nD) (t : Fin cfg0.N) :
    (dat0 V c).flushed 3 t = ((cfg0.win 3).blk t).view.read (Elt Ideal)
      (Cert.Gcn.lin1 (F := Ideal) (V c main_v18) (V c main_arg4) (V c main_arg5)) := by
  show (cfg0.win 3).cut (grid0.coords t) ((dat0 V c).after 3 t) = _
  rw [after0_3]
  unfold out0_3
  rw [View.canon_unit_zero zero2_0]
  simp only [View.ld_unit_zero (S := S5000x128) zero2_0, View.ld_unit_zero (S := S128x256) zero2_0, View.ld_unit_zero (S := S256) zero1_0]
  funext j
  obtain ⟨q, c', rfl⟩ : ∃ (q : Fin 5000) (c' : Fin 256), j = ix2 q c' := ⟨j 0, j 1, eq_ix2 j⟩
  have hN : cfg0.N = 10 := N_0
  have hp : t.val * 5000 + q.val < 50000 := by have := t.isLt; have := q.isLt; omega
  show k0_pay1 (F := Ideal) (iblk0 V c 0 t) (iblk0 V c 1 t) (iblk0 V c 2 t) (ix2 q c')
      = Cert.Gcn.lin1 (F := Ideal) (V c main_v18) (V c main_arg4) (V c main_arg5) (((cfg0.win 3).blk t).view.emb (ix2 q c'))
  rw [out0_emb t q c' ⟨t.val * 5000 + q.val, hp⟩ rfl]
  refine (pay0_apply (iblk0 V c 0 t) (iblk0 V c 1 t) (iblk0 V c 2 t) q c').trans ?_
  refine Eq.trans ?_ (Cert.Gcn.lin1_apply (V c main_v18) (V c main_arg4) (V c main_arg5) ⟨t.val * 5000 + q.val, hp⟩ c').symm
  rw [tile0_b V c t c']
  refine congrArg (fun s => max (s + _) _) (Finset.sum_congr rfl fun a _ => ?_)
  rw [tile0_x V c t q a ⟨t.val * 5000 + q.val, hp⟩ rfl, tile0_w V c t a c']

/-- An index of the result array is in point t's block iff its row is one of the point's 5000 rows. -/
theorem mem_out0 (t : Fin cfg0.N) (i : (⟨2, ![50000, 256]⟩ : Shape).Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v19).slice (win0_3.rect t)).set ↔ _
  rw [View.set_slice_whole, Rect.mem_set_unit]
  exact Iff.rfl

/-- THE RESULT ARRAY after the region: the layer of the whole arrays as the region finds them. -/
theorem final0 (c : Dev nD) :
    (dat0 V c).arrAt 3 cfg0.N = Cert.Gcn.lin1 (F := Ideal) (V c main_v18) (V c main_arg4) (V c main_arg5) :=
  (dat0 V c).arrAt_eq_of_cover 3 _ (fun t _ => flushed0 V c t) fun i => by
    have hi0 : (i 0).val < 50000 := (i 0).isLt
    have hi1 : (i 1).val < 256 := (i 1).isLt
    have hN : cfg0.N = 10 := N_0
    refine ⟨⟨(i 0).val / 5000, by rw [hN]; omega⟩, flush0_3 _, ?_⟩
    rw [mem_out0]
    obtain ⟨-, -, -, -, -, e0, e1⟩ := index0 ⟨(i 0).val / 5000, by rw [hN]; omega⟩
    intro a
    match a with
    | ⟨0, _⟩ =>
      show win0_3.index _ (0 : Fin 2) * 5000 ≤ (i 0).val ∧ (i 0).val < win0_3.index _ (0 : Fin 2) * 5000 + 5000
      rw [e0]; show (i 0).val / 5000 * 5000 ≤ (i 0).val ∧ (i 0).val < (i 0).val / 5000 * 5000 + 5000; omega
    | ⟨1, _⟩ =>
      show win0_3.index _ (1 : Fin 2) * 256 ≤ (i 1).val ∧ (i 1).val < win0_3.index _ (1 : Fin 2) * 256 + 256
      rw [e1]; omega

end Cert.KernelIdeal.Whole

end
-- ==== Proof.Final1.lean ====
/-
  Region 1 (the second dense layer), from its row tiles to its whole result array.

  The grid has ten points; point t works on rows 5000·t … 5000·t + 4999: its input tile is those rows of x, the weight
  matrix and the bias are whole, and it writes back those rows of the result. Entry (q, c) of what point t stores is
  max(Σ_a x(5000·t + q, a)·W(a, c) + b(c), 0), which is entry (5000·t + q, c) of the layer applied to the whole of x.
  The ten row blocks tile the 50000 rows, so the result array ends holding the layer of the whole arrays.
-/
import proofs.«110687_j5007931867571_1_alg».proof.Proof.Gen.KernelIdeal.Frame
import proofs.«110687_j5007931867571_1_alg».proof.Proof.TileAt
import proofs.«110687_j5007931867571_1_alg».proof.Proof.LayerAt
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a <;> rfl

/-- The printed index maps over the grid: the tile and the result block move with the point along the rows; the weight
    matrix and the bias stay at block 0. -/
theorem index1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Row q of point t's input tile is row 5000·t + q of the array. -/
theorem tile1_x (c : Dev nD) (t : Fin cfg1.N) (q : Fin 5000) (a : Fin 256) (p : Fin 50000) (hp : p.val = t.val * 5000 + q.val) :
    (iblk1 V c 0 t : S5000x256.Idx → Ideal .f32) (ix2 q a) = (V c main_v38 : (⟨2, ![50000, 256]⟩ : Shape).Idx → Ideal .f32) (ix2 p a) := by
  obtain ⟨e0, e1, -⟩ := index1 t
  unfold iblk1
  rw [View.read_apply]
  show V c main_v38 _ = V c main_v38 _
  refine congrArg _ (funext fun ax => Fin.ext ?_)
  match ax with
  | ⟨0, _⟩ => show win1_0.index t (0 : Fin 2) * 5000 + 1 * q.val = p.val; rw [e0, hp]; omega
  | ⟨1, _⟩ => show win1_0.index t (1 : Fin 2) * 256 + 1 * a.val = a.val; rw [e1]; omega

/-- The weight window's block is the whole weight matrix. -/
theorem tile1_w (c : Dev nD) (t : Fin cfg1.N) (a : Fin 256) (c' : Fin 256) :
    (iblk1 V c 1 t : S256x256.Idx → Ideal .f32) (ix2 a c') = (V c main_arg6 : S256x256.Idx → Ideal .f32) (ix2 a c') := by
  obtain ⟨-, -, e0, e1, -⟩ := index1 t
  unfold iblk1
  rw [View.read_apply]
  show V c main_arg6 _ = V c main_arg6 _
  refine congrArg _ (funext fun ax => Fin.ext ?_)
  match ax with
  | ⟨0, _⟩ => show win1_1.index t (0 : Fin 2) * 256 + 1 * a.val = a.val; rw [e0]; omega
  | ⟨1, _⟩ => show win1_1.index t (1 : Fin 2) * 256 + 1 * c'.val = c'.val; rw [e1]; omega

/-- The bias window's block is the whole bias. -/
theorem tile1_b (c : Dev nD) (t : Fin cfg1.N) (c' : Fin 256) :
    (iblk1 V c 2 t : S256.Idx → Ideal .f32) (ix1 c') = (V c main_arg7 : S256.Idx → Ideal .f32) (ix1 c') := by
  obtain ⟨-, -, -, -, e0, -⟩ := index1 t
  unfold iblk1
  rw [View.read_apply]
  show V c main_arg7 _ = V c main_arg7 _
  refine congrArg _ (funext fun ax => Fin.ext ?_)
  match ax with
  | ⟨0, _⟩ => show win1_2.index t (0 : Fin 1) * 256 + 1 * c'.val = c'.val; rw [e0]; omega

/-- Entry (q, c') of point t's result block sits at (5000·t + q, c') of the result array. -/
theorem out1_emb (t : Fin cfg1.N) (q : Fin 5000) (c' : Fin 256) (p : Fin 50000) (hp : p.val = t.val * 5000 + q.val) :
    ((cfg1.win 3).blk t).view.emb (ix2 q c') = (ix2 p c' : (⟨2, ![50000, 256]⟩ : Shape).Idx) := by
  obtain ⟨-, -, -, -, -, e0, e1⟩ := index1 t
  refine funext fun ax => Fin.ext ?_
  match ax with
  | ⟨0, _⟩ => show win1_3.index t (0 : Fin 2) * 5000 + 1 * q.val = p.val; rw [e0, hp]; omega
  | ⟨1, _⟩ => show win1_3.index t (1 : Fin 2) * 256 + 1 * c'.val = c'.val; rw [e1]; omega

/-- What point t writes back is block t of the layer applied to the whole arrays as the region finds them. -/
theorem flushed1 (c : Dev nD) (t : Fin cfg1.N) :
    (dat1 V c).flushed 3 t = ((cfg1.win 3).blk t).view.read (Elt Ideal)
      (Cert.Gcn.lin2 (F := Ideal) (V c main_v38) (V c main_arg6) (V c main_arg7)) := by
  show (cfg1.win 3).cut (grid1.coords t) ((dat1 V c).after 3 t) = _
  rw [after1_3]
  unfold out1_3
  rw [View.canon_unit_zero zero2_1]
  simp only [View.ld_unit_zero (S := S5000x256) zero2_1, View.ld_unit_zero (S := S256x256) zero2_1, View.ld_unit_zero (S := S256) zero1_1]
  funext j
  obtain ⟨q, c', rfl⟩ : ∃ (q : Fin 5000) (c' : Fin 256), j = ix2 q c' := ⟨j 0, j 1, eq_ix2 j⟩
  have hN : cfg1.N = 10 := N_1
  have hp : t.val * 5000 + q.val < 50000 := by have := t.isLt; have := q.isLt; omega
  show k1_pay1 (F := Ideal) (iblk1 V c 0 t) (iblk1 V c 1 t) (iblk1 V c 2 t) (ix2 q c')
      = Cert.Gcn.lin2 (F := Ideal) (V c main_v38) (V c main_arg6) (V c main_arg7) (((cfg1.win 3).blk t).view.emb (ix2 q c'))
  rw [out1_emb t q c' ⟨t.val * 5000 + q.val, hp⟩ rfl]
  refine (pay1_apply (iblk1 V c 0 t) (iblk1 V c 1 t) (iblk1 V c 2 t) q c').trans ?_
  refine Eq.trans ?_ (Cert.Gcn.lin2_apply (V c main_v38) (V c main_arg6) (V c main_arg7) ⟨t.val * 5000 + q.val, hp⟩ c').symm
  rw [tile1_b V c t c']
  refine congrArg (fun s => max (s + _) _) (Finset.sum_congr rfl fun a _ => ?_)
  rw [tile1_x V c t q a ⟨t.val * 5000 + q.val, hp⟩ rfl, tile1_w V c t a c']

/-- An index of the result array is in point t's block iff its row is one of the point's 5000 rows. -/
theorem mem_out1 (t : Fin cfg1.N) (i : (⟨2, ![50000, 256]⟩ : Shape).Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v39).slice (win1_3.rect t)).set ↔ _
  rw [View.set_slice_whole, Rect.mem_set_unit]
  exact Iff.rfl

/-- THE RESULT ARRAY after the region: the layer of the whole arrays as the region finds them. -/
theorem final1 (c : Dev nD) :
    (dat1 V c).arrAt 3 cfg1.N = Cert.Gcn.lin2 (F := Ideal) (V c main_v38) (V c main_arg6) (V c main_arg7) :=
  (dat1 V c).arrAt_eq_of_cover 3 _ (fun t _ => flushed1 V c t) fun i => by
    have hi0 : (i 0).val < 50000 := (i 0).isLt
    have hi1 : (i 1).val < 256 := (i 1).isLt
    have hN : cfg1.N = 10 := N_1
    refine ⟨⟨(i 0).val / 5000, by rw [hN]; omega⟩, flush1_3 _, ?_⟩
    rw [mem_out1]
    obtain ⟨-, -, -, -, -, e0, e1⟩ := index1 ⟨(i 0).val / 5000, by rw [hN]; omega⟩
    intro a
    match a with
    | ⟨0, _⟩ =>
      show win1_3.index _ (0 : Fin 2) * 5000 ≤ (i 0).val ∧ (i 0).val < win1_3.index _ (0 : Fin 2) * 5000 + 5000
      rw [e0]; show (i 0).val / 5000 * 5000 ≤ (i 0).val ∧ (i 0).val < (i 0).val / 5000 * 5000 + 5000; omega
    | ⟨1, _⟩ =>
      show win1_3.index _ (1 : Fin 2) * 256 ≤ (i 1).val ∧ (i 1).val < win1_3.index _ (1 : Fin 2) * 256 + 256
      rw [e1]; omega

end Cert.KernelIdeal.Whole

end
-- ==== Proof.Final2.lean ====
/-
  Region 2 (the readout), from its one block to its result array.

  The grid has one point and every window's block is its whole array: the body reads the pooled features, the two weight
  matrices and the two biases whole, and what it stores — entry (p, c) is Σ_a (Σ_k g(p, k)·Wr1(k, a) + br1(a))·Wr2(a, c) +
  br2(c) — is written back over the whole result array.
-/
import proofs.«110687_j5007931867571_1_alg».proof.Proof.Gen.KernelIdeal.Frame
import proofs.«110687_j5007931867571_1_alg».proof.Proof.TileAt
import proofs.«110687_j5007931867571_1_alg».proof.Proof.LayerAt
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_2 : (![0, 0] : Fin 2 → Nat) = fun _ => 0 := funext fun a => by fin_cases a <;> rfl
theorem zero1_2 : (![0] : Fin 1 → Nat) = fun _ => 0 := funext fun a => by fin_cases a <;> rfl

/-- The printed index maps at the grid's one point: every window is at block 0 on every axis. -/
theorem index2 : ∀ t : Fin cfg2.N, win2_0.index t (0 : Fin 2) = 0 ∧ win2_0.index t (1 : Fin 2) = 0
    ∧ win2_1.index t (0 : Fin 2) = 0 ∧ win2_1.index t (1 : Fin 2) = 0 ∧ win2_2.index t (0 : Fin 1) = 0
    ∧ win2_3.index t (0 : Fin 2) = 0 ∧ win2_3.index t (1 : Fin 2) = 0 ∧ win2_4.index t (0 : Fin 1) = 0
    ∧ win2_5.index t (0 : Fin 2) = 0 ∧ win2_5.index t (1 : Fin 2) = 0 :=
  (by decide +kernel : ∀ t : Fin grid2.N, _)

/-! Each input window's block is its whole array. -/

theorem tile2_g (c : Dev nD) (t : Fin cfg2.N) (p : Fin 256) (k : Fin 256) :
    (iblk2 V c 0 t : S256x256.Idx → Ideal .f32) (ix2 p k) = (V c main_v51 : S256x256.Idx → Ideal .f32) (ix2 p k) := by
  obtain ⟨e00, e01, e10, e11, e20, e30, e31, e40, e50, e51⟩ := index2 t
  unfold iblk2
  rw [View.read_apply]
  show V c main_v51 _ = V c main_v51 _
  refine congrArg _ (funext fun ax => Fin.ext ?_)
  match ax with
  | ⟨0, _⟩ => show win2_0.index t (0 : Fin 2) * 256 + 1 * p.val = p.val; rw [e00]; omega
  | ⟨1, _⟩ => show win2_0.index t (1 : Fin 2) * 256 + 1 * k.val = k.val; rw [e01]; omega

theorem tile2_w1 (c : Dev nD) (t : Fin cfg2.N) (k : Fin 256) (a : Fin 128) :
    (iblk2 V c 1 t : S256x128.Idx → Ideal .f32) (ix2 k a) = (V c main_arg8 : S256x128.Idx → Ideal .f32) (ix2 k a) := by
  obtain ⟨e00, e01, e10, e11, e20, e30, e31, e40, e50, e51⟩ := index2 t
  unfold iblk2
  rw [View.read_apply]
  show V c main_arg8 _ = V c main_arg8 _
  refine congrArg _ (funext fun ax => Fin.ext ?_)
  match ax with
  | ⟨0, _⟩ => show win2_1.index t (0 : Fin 2) * 256 + 1 * k.val = k.val; rw [e10]; omega
  | ⟨1, _⟩ => show win2_1.index t (1 : Fin 2) * 128 + 1 * a.val = a.val; rw [e11]; omega

theorem tile2_b1 (c : Dev nD) (t : Fin cfg2.N) (a : Fin 128) :
    (iblk2 V c 2 t : S128.Idx → Ideal .f32) (ix1 a) = (V c main_arg9 : S128.Idx → Ideal .f32) (ix1 a) := by
  obtain ⟨e00, e01, e10, e11, e20, e30, e31, e40, e50, e51⟩ := index2 t
  unfold iblk2
  rw [View.read_apply]
  show V c main_arg9 _ = V c main_arg9 _
  refine congrArg _ (funext fun ax => Fin.ext ?_)
  match ax with
  | ⟨0, _⟩ => show win2_2.index t (0 : Fin 1) * 128 + 1 * a.val = a.val; rw [e20]; omega

theorem tile2_w2 (c : Dev nD) (t : Fin cfg2.N) (a : Fin 128) (c' : Fin 1) :
    (iblk2 V c 3 t : S128x1.Idx → Ideal .f32) (ix2 a c') = (V c main_arg10 : S128x1.Idx → Ideal .f32) (ix2 a c') := by
  obtain ⟨e00, e01, e10, e11, e20, e30, e31, e40, e50, e51⟩ := index2 t
  unfold iblk2
  rw [View.read_apply]
  show V c main_arg10 _ = V c main_arg10 _
  refine congrArg _ (funext fun ax => Fin.ext ?_)
  match ax with
  | ⟨0, _⟩ => show win2_3.index t (0 : Fin 2) * 128 + 1 * a.val = a.val; rw [e30]; omega
  | ⟨1, _⟩ => show win2_3.index t (1 : Fin 2) * 1 + 1 * c'.val = c'.val; rw [e31]; omega

theorem tile2_b2 (c : Dev nD) (t : Fin cfg2.N) (c' : Fin 1) :
    (iblk2 V c 4 t : S1.Idx → Ideal .f32) (ix1 c') = (V c main_arg11 : S1.Idx → Ideal .f32) (ix1 c') := by
  obtain ⟨e00, e01, e10, e11, e20, e30, e31, e40, e50, e51⟩ := index2 t
  unfold iblk2
  rw [View.read_apply]
  show V c main_arg11 _ = V c main_arg11 _
  refine congrArg _ (funext fun ax => Fin.ext ?_)
  match ax with
  | ⟨0, _⟩ => show win2_4.index t (0 : Fin 1) * 1 + 1 * c'.val = c'.val; rw [e40]; omega

/-- The result block is the whole result array. -/
theorem out2_emb (t : Fin cfg2.N) (p : Fin 256) (c' : Fin 1) :
    ((cfg2.win 5).blk t).view.emb (ix2 p c') = (ix2 p c' : S256x1.Idx) := by
  obtain ⟨-, -, -, -, -, -, -, -, e50, e51⟩ := index2 t
  refine funext fun ax => Fin.ext ?_
  match ax with
  | ⟨0, _⟩ => show win2_5.index t (0 : Fin 2) * 256 + 1 * p.val = p.val; rw [e50]; omega
  | ⟨1, _⟩ => show win2_5.index t (1 : Fin 2) * 1 + 1 * c'.val = c'.val; rw [e51]; omega

/-- What the one point writes back is the readout of the whole arrays as the region finds them. -/
theorem flushed2 (c : Dev nD) (t : Fin cfg2.N) :
    (dat2 V c).flushed 5 t = ((cfg2.win 5).blk t).view.read (Elt Ideal)
      (Cert.Gcn.readout (F := Ideal) (V c main_v51) (V c main_arg8) (V c main_arg9) (V c main_arg10) (V c main_arg11)) := by
  show (cfg2.win 5).cut (grid2.coords t) ((dat2 V c).after 5 t) = _
  rw [after2_5]
  unfold out2_5
  rw [View.canon_unit_zero zero2_2]
  simp only [View.ld_unit_zero (S := S256x256) zero2_2, View.ld_unit_zero (S := S256x128) zero2_2, View.ld_unit_zero (S := S128) zero1_2,
    View.ld_unit_zero (S := S128x1) zero2_2, View.ld_unit_zero (S := S1) zero1_2]
  funext j
  obtain ⟨p, c', rfl⟩ : ∃ (p : Fin 256) (c' : Fin 1), j = ix2 p c' := ⟨j 0, j 1, eq_ix2 j⟩
  show k2_pay1 (F := Ideal) (iblk2 V c 0 t) (iblk2 V c 1 t) (iblk2 V c 2 t) (iblk2 V c 3 t) (iblk2 V c 4 t) (ix2 p c')
      = Cert.Gcn.readout (F := Ideal) (V c main_v51) (V c main_arg8) (V c main_arg9) (V c main_arg10) (V c main_arg11) (((cfg2.win 5).blk t).view.emb (ix2 p c'))
  rw [out2_emb t p c']
  refine (pay2_apply (iblk2 V c 0 t) (iblk2 V c 1 t) (iblk2 V c 2 t) (iblk2 V c 3 t) (iblk2 V c 4 t) p c').trans ?_
  refine Eq.trans ?_ (Cert.Gcn.readout_apply (V c main_v51) (V c main_arg8) (V c main_arg9) (V c main_arg10) (V c main_arg11) p c').symm
  rw [tile2_b2 V c t c']
  refine congrArg (fun s => s + _) (Finset.sum_congr rfl fun a _ => ?_)
  rw [tile2_b1 V c t a, tile2_w2 V c t a c']
  refine congrArg (fun s => (s + _) * _) (Finset.sum_congr rfl fun k _ => ?_)
  rw [tile2_g V c t p k, tile2_w1 V c t k a]

/-- THE RESULT ARRAY after the region: the readout of the whole arrays as the region finds them. -/
theorem final2 (c : Dev nD) :
    (dat2 V c).arrAt 5 cfg2.N
      = Cert.Gcn.readout (F := Ideal) (V c main_v51) (V c main_arg8) (V c main_arg9) (V c main_arg10) (V c main_arg11) :=
  (dat2 V c).arrAt_eq_of_cover 5 _ (fun t _ => flushed2 V c t) fun i => by
    have hi0 : (i 0).val < 256 := (i 0).isLt
    have hi1 : (i 1).val < 1 := (i 1).isLt
    refine ⟨t2_0, flush2_5 _, ?_⟩
    show i ∈ ((View.whole main_v52).slice (win2_5.rect t2_0)).set
    rw [View.set_slice_whole, Rect.mem_set_unit]
    obtain ⟨-, -, -, -, -, -, -, -, e50, e51⟩ := index2 t2_0
    intro a
    match a with
    | ⟨0, _⟩ =>
      show win2_5.index t2_0 (0 : Fin 2) * 256 ≤ (i 0).val ∧ (i 0).val < win2_5.index t2_0 (0 : Fin 2) * 256 + 256
      rw [e50]; omega
    | ⟨1, _⟩ =>
      show win2_5.index t2_0 (1 : Fin 2) * 1 ≤ (i 1).val ∧ (i 1).val < win2_5.index t2_0 (1 : Fin 2) * 1 + 1
      rw [e51]; omega

end Cert.KernelIdeal.Whole

end
-- ==== Proof.Chain.lean ====
/-
  The kernel program's result as a function of its arguments: the chain of boundary contents, walked forward.

  The program's buffers at the boundaries between its segments are W0 (launch), W1 (after the first stretch of host
  operations), W2 (after region 0), W3, W4 (after region 1), W5, W6 (after region 2, the return). A host stretch writes
  its own results and leaves every other buffer; a region writes its result array and leaves every other buffer; no
  segment writes an argument array. So, walking forward: W1 holds the first mean aggregation of the arguments; region 0
  turns it into the first layer's output in W2; the second stretch aggregates that into W3; region 1 gives the second
  layer's output in W4; the third stretch pools it by graph into W5; region 2 reads it out into W6's result buffer —
  the network of the arguments.
-/
import proofs.«110687_j5007931867571_1_alg».proof.Proof.Gen.KernelIdeal.Frame
import proofs.«110687_j5007931867571_1_alg».proof.Proof.Final0
import proofs.«110687_j5007931867571_1_alg».proof.Proof.Final1
import proofs.«110687_j5007931867571_1_alg».proof.Proof.Final2
import Idealize.ShloMosaic.Lib.StableHlo.Run

set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## After the first stretch of host operations -/

theorem W1_a1 (c : Dev nD) : W1 m ρ c (Proc.devRef .tc main_arg1) = m ((c : Thread nD τ).loc main_arg1) := by
  show StableHlo.after hostOps0 (W0 m ρ c) _ = _; after_results
theorem W1_a2 (c : Dev nD) : W1 m ρ c (Proc.devRef .tc main_arg2) = m ((c : Thread nD τ).loc main_arg2) := by
  show StableHlo.after hostOps0 (W0 m ρ c) _ = _; after_results
theorem W1_a3 (c : Dev nD) : W1 m ρ c (Proc.devRef .tc main_arg3) = m ((c : Thread nD τ).loc main_arg3) := by
  show StableHlo.after hostOps0 (W0 m ρ c) _ = _; after_results
theorem W1_a4 (c : Dev nD) : W1 m ρ c (Proc.devRef .tc main_arg4) = m ((c : Thread nD τ).loc main_arg4) := by
  show StableHlo.after hostOps0 (W0 m ρ c) _ = _; after_results
theorem W1_a5 (c : Dev nD) : W1 m ρ c (Proc.devRef .tc main_arg5) = m ((c : Thread nD τ).loc main_arg5) := by
  show StableHlo.after hostOps0 (W0 m ρ c) _ = _; after_results
theorem W1_a6 (c : Dev nD) : W1 m ρ c (Proc.devRef .tc main_arg6) = m ((c : Thread nD τ).loc main_arg6) := by
  show StableHlo.after hostOps0 (W0 m ρ c) _ = _; after_results
theorem W1_a7 (c : Dev nD) : W1 m ρ c (Proc.devRef .tc main_arg7) = m ((c : Thread nD τ).loc main_arg7) := by
  show StableHlo.after hostOps0 (W0 m ρ c) _ = _; after_results
theorem W1_a8 (c : Dev nD) : W1 m ρ c (Proc.devRef .tc main_arg8) = m ((c : Thread nD τ).loc main_arg8) := by
  show StableHlo.after hostOps0 (W0 m ρ c) _ = _; after_results
theorem W1_a9 (c : Dev nD) : W1 m ρ c (Proc.devRef .tc main_arg9) = m ((c : Thread nD τ).loc main_arg9) := by
  show StableHlo.after hostOps0 (W0 m ρ c) _ = _; after_results
theorem W1_a10 (c : Dev nD) : W1 m ρ c (Proc.devRef .tc main_arg10) = m ((c : Thread nD τ).loc main_arg10) := by
  show StableHlo.after hostOps0 (W0 m ρ c) _ = _; after_results
theorem W1_a11 (c : Dev nD) : W1 m ρ c (Proc.devRef .tc main_arg11) = m ((c : Thread nD τ).loc main_arg11) := by
  show StableHlo.after hostOps0 (W0 m ρ c) _ = _; after_results

/-- The first mean aggregation of the node features over the edges. -/
theorem W1_x (c : Dev nD) : W1 m ρ c (Proc.devRef .tc main_v18)
    = Cert.Gcn.agg128 (F := Ideal) (m ((c : Thread nD τ).loc main_arg0)) (m ((c : Thread nD τ).loc main_arg1)) (m ((c : Thread nD τ).loc main_arg2)) := by
  show StableHlo.after hostOps0 (W0 m ρ c) _ = _
  after_results_simp
  rfl

/-! ## After region 0 -/

theorem W2_a1 (c : Dev nD) : W2 m ρ c (Proc.devRef .tc main_arg1) = m ((c : Thread nD τ).loc main_arg1) :=
  (W2_of_ne m ρ c main_arg1 (by decide)).trans (W1_a1 m ρ c)
theorem W2_a2 (c : Dev nD) : W2 m ρ c (Proc.devRef .tc main_arg2) = m ((c : Thread nD τ).loc main_arg2) :=
  (W2_of_ne m ρ c main_arg2 (by decide)).trans (W1_a2 m ρ c)
theorem W2_a3 (c : Dev nD) : W2 m ρ c (Proc.devRef .tc main_arg3) = m ((c : Thread nD τ).loc main_arg3) :=
  (W2_of_ne m ρ c main_arg3 (by decide)).trans (W1_a3 m ρ c)
theorem W2_a6 (c : Dev nD) : W2 m ρ c (Proc.devRef .tc main_arg6) = m ((c : Thread nD τ).loc main_arg6) :=
  (W2_of_ne m ρ c main_arg6 (by decide)).trans (W1_a6 m ρ c)
theorem W2_a7 (c : Dev nD) : W2 m ρ c (Proc.devRef .tc main_arg7) = m ((c : Thread nD τ).loc main_arg7) :=
  (W2_of_ne m ρ c main_arg7 (by decide)).trans (W1_a7 m ρ c)
theorem W2_a8 (c : Dev nD) : W2 m ρ c (Proc.devRef .tc main_arg8) = m ((c : Thread nD τ).loc main_arg8) :=
  (W2_of_ne m ρ c main_arg8 (by decide)).trans (W1_a8 m ρ c)
theorem W2_a9 (c : Dev nD) : W2 m ρ c (Proc.devRef .tc main_arg9) = m ((c : Thread nD τ).loc main_arg9) :=
  (W2_of_ne m ρ c main_arg9 (by decide)).trans (W1_a9 m ρ c)
theorem W2_a10 (c : Dev nD) : W2 m ρ c (Proc.devRef .tc main_arg10) = m ((c : Thread nD τ).loc main_arg10) :=
  (W2_of_ne m ρ c main_arg10 (by decide)).trans (W1_a10 m ρ c)
theorem W2_a11 (c : Dev nD) : W2 m ρ c (Proc.devRef .tc main_arg11) = m ((c : Thread nD τ).loc main_arg11) :=
  (W2_of_ne m ρ c main_arg11 (by decide)).trans (W1_a11 m ρ c)

/-- The first layer's output. -/
theorem W2_y (c : Dev nD) : W2 m ρ c (Proc.devRef .tc main_v19)
    = Cert.Gcn.lin1 (F := Ideal) (Cert.Gcn.agg128 (F := Ideal) (m ((c : Thread nD τ).loc main_arg0)) (m ((c : Thread nD τ).loc main_arg1)) (m ((c : Thread nD τ).loc main_arg2))) (m ((c : Thread nD τ).loc main_arg4)) (m ((c : Thread nD τ).loc main_arg5)) := by
  refine (W2_arr m ρ c 3).trans ((final0 (V1 m ρ) c).trans ?_)
  show Cert.Gcn.lin1 (F := Ideal) (W1 m ρ c (Proc.devRef .tc main_v18)) (W1 m ρ c (Proc.devRef .tc main_arg4)) (W1 m ρ c (Proc.devRef .tc main_arg5)) = _
  rw [W1_x, W1_a4, W1_a5]

/-! ## After the second stretch of host operations -/

theorem W3_a3 (c : Dev nD) : W3 m ρ c (Proc.devRef .tc main_arg3) = m ((c : Thread nD τ).loc main_arg3) := by
  show StableHlo.after hostOps1 (W2 m ρ c) _ = _; after_results; exact W2_a3 m ρ c
theorem W3_a6 (c : Dev nD) : W3 m ρ c (Proc.devRef .tc main_arg6) = m ((c : Thread nD τ).loc main_arg6) := by
  show StableHlo.after hostOps1 (W2 m ρ c) _ = _; after_results; exact W2_a6 m ρ c
theorem W3_a7 (c : Dev nD) : W3 m ρ c (Proc.devRef .tc main_arg7) = m ((c : Thread nD τ).loc main_arg7) := by
  show StableHlo.after hostOps1 (W2 m ρ c) _ = _; after_results; exact W2_a7 m ρ c
theorem W3_a8 (c : Dev nD) : W3 m ρ c (Proc.devRef .tc main_arg8) = m ((c : Thread nD τ).loc main_arg8) := by
  show StableHlo.after hostOps1 (W2 m ρ c) _ = _; after_results; exact W2_a8 m ρ c
theorem W3_a9 (c : Dev nD) : W3 m ρ c (Proc.devRef .tc main_arg9) = m ((c : Thread nD τ).loc main_arg9) := by
  show StableHlo.after hostOps1 (W2 m ρ c) _ = _; after_results; exact W2_a9 m ρ c
theorem W3_a10 (c : Dev nD) : W3 m ρ c (Proc.devRef .tc main_arg10) = m ((c : Thread nD τ).loc main_arg10) := by
  show StableHlo.after hostOps1 (W2 m ρ c) _ = _; after_results; exact W2_a10 m ρ c
theorem W3_a11 (c : Dev nD) : W3 m ρ c (Proc.devRef .tc main_arg11) = m ((c : Thread nD τ).loc main_arg11) := by
  show StableHlo.after hostOps1 (W2 m ρ c) _ = _; after_results; exact W2_a11 m ρ c

/-- The second mean aggregation, of the first layer's output. -/
theorem W3_x (c : Dev nD) : W3 m ρ c (Proc.devRef .tc main_v38)
    = Cert.Gcn.agg256 (F := Ideal) (W2 m ρ c (Proc.devRef .tc main_v19)) (m ((c : Thread nD τ).loc main_arg1)) (m ((c : Thread nD τ).loc main_arg2)) := by
  show StableHlo.after hostOps1 (W2 m ρ c) _ = _
  after_results_simp
  rw [W2_a1, W2_a2]
  rfl

/-! ## After region 1 -/

theorem W4_a3 (c : Dev nD) : W4 m ρ c (Proc.devRef .tc main_arg3) = m ((c : Thread nD τ).loc main_arg3) :=
  (W4_of_ne m ρ c main_arg3 (by decide)).trans (W3_a3 m ρ c)
theorem W4_a8 (c : Dev nD) : W4 m ρ c (Proc.devRef .tc main_arg8) = m ((c : Thread nD τ).loc main_arg8) :=
  (W4_of_ne m ρ c main_arg8 (by decide)).trans (W3_a8 m ρ c)
theorem W4_a9 (c : Dev nD) : W4 m ρ c (Proc.devRef .tc main_arg9) = m ((c : Thread nD τ).loc main_arg9) :=
  (W4_of_ne m ρ c main_arg9 (by decide)).trans (W3_a9 m ρ c)
theorem W4_a10 (c : Dev nD) : W4 m ρ c (Proc.devRef .tc main_arg10) = m ((c : Thread nD τ).loc main_arg10) :=
  (W4_of_ne m ρ c main_arg10 (by decide)).trans (W3_a10 m ρ c)
theorem W4_a11 (c : Dev nD) : W4 m ρ c (Proc.devRef .tc main_arg11) = m ((c : Thread nD τ).loc main_arg11) :=
  (W4_of_ne m ρ c main_arg11 (by decide)).trans (W3_a11 m ρ c)

/-- The second layer's output. -/
theorem W4_y (c : Dev nD) : W4 m ρ c (Proc.devRef .tc main_v39)
    = Cert.Gcn.lin2 (F := Ideal) (W3 m ρ c (Proc.devRef .tc main_v38)) (m ((c : Thread nD τ).loc main_arg6)) (m ((c : Thread nD τ).loc main_arg7)) := by
  refine (W4_arr m ρ c 3).trans ((final1 (V3 m ρ) c).trans ?_)
  show Cert.Gcn.lin2 (F := Ideal) (W3 m ρ c (Proc.devRef .tc main_v38)) (W3 m ρ c (Proc.devRef .tc main_arg6)) (W3 m ρ c (Proc.devRef .tc main_arg7)) = _
  rw [W3_a6, W3_a7]

/-! ## After the third stretch of host operations -/

theorem W5_a8 (c : Dev nD) : W5 m ρ c (Proc.devRef .tc main_arg8) = m ((c : Thread nD τ).loc main_arg8) := by
  show StableHlo.after hostOps2 (W4 m ρ c) _ = _; after_results; exact W4_a8 m ρ c
theorem W5_a9 (c : Dev nD) : W5 m ρ c (Proc.devRef .tc main_arg9) = m ((c : Thread nD τ).loc main_arg9) := by
  show StableHlo.after hostOps2 (W4 m ρ c) _ = _; after_results; exact W4_a9 m ρ c
theorem W5_a10 (c : Dev nD) : W5 m ρ c (Proc.devRef .tc main_arg10) = m ((c : Thread nD τ).loc main_arg10) := by
  show StableHlo.after hostOps2 (W4 m ρ c) _ = _; after_results; exact W4_a10 m ρ c
theorem W5_a11 (c : Dev nD) : W5 m ρ c (Proc.devRef .tc main_arg11) = m ((c : Thread nD τ).loc main_arg11) := by
  show StableHlo.after hostOps2 (W4 m ρ c) _ = _; after_results; exact W4_a11 m ρ c

/-- The per-graph means of the second layer's output. -/
theorem W5_g (c : Dev nD) : W5 m ρ c (Proc.devRef .tc main_v51)
    = Cert.Gcn.pool (F := Ideal) (W4 m ρ c (Proc.devRef .tc main_v39)) (m ((c : Thread nD τ).loc main_arg3)) := by
  show StableHlo.after hostOps2 (W4 m ρ c) _ = _
  after_results_simp
  rw [W4_a3]
  rfl

/-! ## After region 2: the result -/

/-- THE RESULT: the network of the argument arrays. -/
theorem result_eq (c : Dev nD) : W6 m ρ c (Proc.devRef .tc main_v52)
    = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  refine (W6_arr m ρ c 5).trans ((final2 (V5 m ρ) c).trans ?_)
  show Cert.Gcn.readout (F := Ideal) (W5 m ρ c (Proc.devRef .tc main_v51)) (W5 m ρ c (Proc.devRef .tc main_arg8)) (W5 m ρ c (Proc.devRef .tc main_arg9))
      (W5 m ρ c (Proc.devRef .tc main_arg10)) (W5 m ρ c (Proc.devRef .tc main_arg11)) = _
  rw [W5_g, W5_a8, W5_a9, W5_a10, W5_a11, W4_y, W3_x, W2_y]
  rfl

end Cert.KernelIdeal.Whole

end
-- ==== Proof.RefNet.lean ====
/-
  The reference program computes the network: its result, the composed term of all its host operations over the
  argument arrays, is `net` of the arguments — the same operations, grouped by layer.
-/
import proofs.«110687_j5007931867571_1_alg».proof.Proof.Spec
import proofs.«110687_j5007931867571_1_alg».proof.Proof.Gen.ReferenceIdeal.Run

noncomputable section

namespace Cert.Gcn

open Idealize.ShloMosaic Idealize.SL.Sem Cert.ReferenceIdeal

variable {F : FTy → Type} [FloatOps F]

set_option maxRecDepth 8192 in
theorem res_eq_net (m : (ℓ : Loc nD τ sig) → Buf (Elt F) ℓ) (c : Dev nD) :
    Cert.ReferenceIdeal.Value.res_main_v67 m c
      = net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v67 net readout pool lin2 agg256 lin1 agg128 degree wrap
  rfl

end Cert.Gcn

end
-- ==== Proof.lean ====
/-
  The certificate of a two-layer graph convolution network with a mean-pool readout.

  The kernel program runs the two dense layers (max(x·W + b, 0), tiled over row blocks of 5000 nodes) and the closing
  pair of affine maps in three kernel regions, and the mean aggregations over the edges and over the graphs as host
  operations between them; the reference program is host operations throughout. On the extended reals both compute ONE
  function of the twelve argument arrays, `Cert.Gcn.net` (Proof/Spec.lean):
  • the reference's composed term is `net` of its arguments, the same operations grouped by stage (Proof/RefNet.lean);
  • the kernel program's buffers at the boundaries of its segments are walked from the launch to the return
    (Proof/KRun.lean, Proof/Chain.lean): a host stretch is the same operations as the reference's, and each region's
    result array is the corresponding stage of the whole arrays (Proof/Final0.lean, Final1.lean, Final2.lean), because a
    tile's entry (q, c) and the stage's entry (5000·t + q, c) are the same sum Σ_a x(·, a)·W(a, c) + b(c)
    (Proof/TileAt.lean, Proof/LayerAt.lean over Proof/Affine.lean): rounding the operands to bf16 changes nothing on the
    extended reals, and the sums are over the same index set.
  No law of arithmetic beyond that reading is used, so the precondition is never opened. The ideal pass rewrote nothing:
  `preserves` is trivial. The frames of the two kernel programs are the generated ones; the reference's frame is its
  generated run with the result dropped.
-/
import proofs.«110687_j5007931867571_1_alg».proof.Defs
import proofs.«110687_j5007931867571_1_alg».proof.Proof.Gen.Kernel
import proofs.«110687_j5007931867571_1_alg».proof.Proof.Gen.Kernel.Skeleton
import proofs.«110687_j5007931867571_1_alg».proof.Proof.Gen.Kernel.Launch
import proofs.«110687_j5007931867571_1_alg».proof.Proof.Gen.Kernel.Points
import proofs.«110687_j5007931867571_1_alg».proof.Proof.Gen.Kernel.Frame
import proofs.«110687_j5007931867571_1_alg».proof.Proof.Gen.KernelIdeal
import proofs.«110687_j5007931867571_1_alg».proof.Proof.Gen.KernelIdeal.Skeleton
import proofs.«110687_j5007931867571_1_alg».proof.Proof.Gen.KernelIdeal.Launch
import proofs.«110687_j5007931867571_1_alg».proof.Proof.Gen.KernelIdeal.Points
import proofs.«110687_j5007931867571_1_alg».proof.Proof.Gen.KernelIdeal.Frame
import proofs.«110687_j5007931867571_1_alg».proof.Proof.Gen.ReferenceIdeal
import proofs.«110687_j5007931867571_1_alg».proof.Proof.Gen.ReferenceIdeal.Run
import proofs.«110687_j5007931867571_1_alg».proof.Proof.Gen.ReferenceIdeal.Read
import proofs.«110687_j5007931867571_1_alg».proof.Proof.Gen.Pre_finite_inputs
import proofs.«110687_j5007931867571_1_alg».proof.Proof.KRun
import proofs.«110687_j5007931867571_1_alg».proof.Proof.Chain
import proofs.«110687_j5007931867571_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at the network of the (agreeing) argument arrays. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Whole.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.Gcn.res_eq_net, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
